-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x384 : Shape := ⟨2, ![131072, 384]⟩
abbrev S384 : Shape := ⟨1, ![384]⟩
abbrev S_ : Shape := ⟨0, ![]⟩

class Facts : Prop where
  bcast_S_S131072x384 : S_.BroadcastsInDim S131072x384 (![] : Fin 0 → Fin S131072x384.rank)
  reducesTo_S131072x384_S_d0_1 : S131072x384.ReducesTo [0, 1] S_
  h_S_ : 0 < S_.numel
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S131072x384 .f32) (main_arg1 : FVec F S131072x384 .f32) (main_arg2 : FVec F S131072x384 .f32) (main_arg3 : FVec F S384 .f32) : IVec S_ 1 :=
  let main_v0 : FVec F S131072x384 .f32 := Host.absf main_arg0
  let main_cst : FVec F S_ .f32 := constant S_ .f32 0x7F800000#32
  let main_v1 : FVec F S131072x384 .f32 := broadcastInDim S131072x384 ![] bcast_S_S131072x384 main_cst
  let main_v2 : IVec S131072x384 1 := cmpf .olt main_v0 main_v1
  let main_c : IVec S_ 1 := constantI S_ 1 1#1
  let main_v3 : IVec S_ 1 := (fun x v => Host.reduce IntOp.andi x v reducesTo_S131072x384_S_d0_1 h_S_) main_v2 main_c
  let main_v4 : FVec F S131072x384 .f32 := Host.absf main_arg1
  let main_cst_0 : FVec F S_ .f32 := constant S_ .f32 0x7F800000#32
  let main_v5 : FVec F S131072x384 .f32 := broadcastInDim S131072x384 ![] bcast_S_S131072x384 main_cst_0
  let main_v6 : IVec S131072x384 1 := cmpf .olt main_v4 main_v5
  let main_c_1 : IVec S_ 1 := constantI S_ 1 1#1
  let main_v7 : IVec S_ 1 := (fun x v => Host.reduce IntOp.andi x v reducesTo_S131072x384_S_d0_1 h_S_) main_v6 main_c_1
  let main_v8 : IVec S_ 1 := andi main_v3 main_v7
  let main_v9 : FVec F S131072x384 .f32 := Host.absf main_arg2
  let main_cst_2 : FVec F S_ .f32 := constant S_ .f32 0x7F800000#32
  let main_v10 : FVec F S131072x384 .f32 := broadcastInDim S131072x384 ![] bcast_S_S131072x384 main_cst_2
  let main_v11 : IVec S131072x384 1 := cmpf .olt main_v9 main_v10
  let main_c_3 : IVec S_ 1 := constantI S_ 1 1#1
  let main_v12 : IVec S_ 1 := (fun x v => Host.reduce IntOp.andi x v reducesTo_S131072x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S131072x384 : Shape := ⟨2, ![131072, 384]⟩
abbrev S384 : Shape := ⟨1, ![384]⟩
abbrev S2x1x1 : Shape := ⟨3, ![2, 1, 1]⟩
abbrev S2048x384 : Shape := ⟨2, ![2048, 384]⟩
abbrev S1x1x1 : Shape := ⟨3, ![1, 1, 1]⟩
abbrev S1x384 : Shape := ⟨2, ![1, 384]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S384, .f32⟩
  | .local _ .vmem, ⟨7, _⟩ => ⟨S1x1x1, .f32⟩
  | .local _ .vmem, ⟨8, _⟩ => ⟨S1x1x1, .f32⟩
  | _, _ => ⟨S131072x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x384_S2048x384_0_0 : ∀ a, (![0, 0] : Fin 2 → Nat) a + S2048x384.size a ≤ S2048x384.size a
  h_S2048x384 : 0 < S2048x384.numel
  inb_S384_S384_0 : ∀ a, (![0] : Fin 1 → Nat) a + S384.size a ≤ S384.size a
  h_S384 : 0 < S384.numel
  shapeCasts_S384_S1x384 : S384.ShapeCasts S1x384
  broadcasts_S1x384_S2048x384 : S1x384.Broadcasts S2048x384
  reduces_S2048x384_S2048 : S2048x384.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S131072x384.size a
  hwx0_0 : ∀ i : grid0.Coords, EltTy.bits .f32 = 32 ∨ (Rect.block (s := S131072x384) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S131072x384.size a
  hwx0_1 : ∀ i : grid0.Coords, EltTy.bits .f32 = 32 ∨ (Rect.block (s := S131072x384) S2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S131072x384.size a
  hwx0_2 : ∀ i : grid0.Coords, EltTy.bits .f32 = 32 ∨ (Rect.block (s := S131072x384) S2048x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x384 : Shape := ⟨2, ![131072, 384]⟩
abbrev S384 : Shape := ⟨1, ![384]⟩
abbrev S1x384 : Shape := ⟨2, ![1, 384]⟩
abbrev S_ : Shape := ⟨0, ![]⟩
abbrev S131072 : Shape := ⟨1, ![131072]⟩

abbrev nBuf : Space → Nat
  | .hbm => 30
  | .vmem => 0
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S384, .f32⟩
  | .hbm, ⟨5, _⟩ => ⟨S131072x384, .f32⟩
  | .hbm, ⟨6, _⟩ => ⟨S131072x384, .f32⟩
  | .hbm, ⟨7, _⟩ => ⟨S1x384, .f32⟩
  | .hbm, ⟨8, _⟩ => ⟨S131072x384, .f32⟩
  | .hbm, ⟨9, _⟩ => ⟨S131072x384, .f32⟩
  | .hbm, ⟨10, _⟩ => ⟨S131072x384, .f32⟩
  | .hbm, ⟨11, _⟩ => ⟨S_, .f32⟩
  | .hbm, ⟨12, _⟩ => ⟨S131072, .f32⟩
  | .hbm, ⟨13, _⟩ => ⟨S1x384, .f32⟩
  | .hbm, ⟨14, _⟩ => ⟨S131072x384, .f32⟩
  | .hbm, ⟨15, _⟩ => ⟨S131072x384, .f32⟩
  | .hbm, ⟨16, _⟩ => ⟨S131072x384, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S_, .f32⟩
  | .hbm, ⟨21, _⟩ => ⟨S131072, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S131072x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  reducesTo_S131072x384_S131072_d1 : S131072x384.ReducesTo [1] S131072
  h_S_ : 0 < S_.numel
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.Pieces.lean ====
/-
  What one run of the kernel body leaves in the output block, at any float instance.

  The body always ends by storing, over the whole 1×1×1 output block, "what the block held + this tile's sum of row
  losses" (the payload `k0_pay2` of the four input blocks and of the block's previous contents). At the first step of
  a half of the batch it first stores the zero block (`k0_pay1`) and reads that back; at every other step it reads
  what the step before left. So the block ends at `k0_pay2 … k0_pay1` in the first case and at `k0_pay2 … xo` in the
  second, where `xo` is what the block held on entry.
-/
import proofs.«142536_j78091095376057_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A later step of a half: the block, holding `xo` on entry, ends at the payload of the input blocks and `xo`. -/
theorem out_B (c : Dev nD) (i : grid0.Coords) (arg2 : Memref sig .tc .vmem S2048x384 .f32) (harg2 : arg2.IsWhole)
    (arg3 : Memref sig .tc .vmem S2048x384 .f32) (harg3 : arg3.IsWhole) (arg4 : Memref sig .tc .vmem S2048x384 .f32) (harg4 : arg4.IsWhole)
    (arg5 : Memref sig .tc .vmem S384 .f32) (harg5 : arg5.IsWhole) (arg6 : Memref sig .tc .vmem S1x1x1 .f32) (harg6 : arg6.IsWhole)
    (hc : ¬cond0_0 i) (x0 x1 x2 : Vec F S2048x384 .f32) (x3 : Vec F S384 .f32) (xo : Vec F S1x1x1 .f32) :
    out0_B_4 c i arg2 harg2 arg3 harg3 arg4 harg4 arg5 harg5 arg6 harg6 hc x0 x1 x2 x3 xo = k0_pay2 x0 x1 x2 x3 xo := by
  unfold out0_B_4
  rw [View.read_writes_eq_canon _ _ _ (cover0_B_4 c i arg2 harg2 arg3 harg3 arg4 harg4 arg5 harg5 arg6 harg6 hc x0 x1 x2 x3 xo)]
  unfold kernelRun0_B
  dsimp only
  rw [View.canon_unit_zero hz3]
  simp only [View.readAt_eq_ld, harg2.read_unread, harg3.read_unread, harg4.read_unread, harg5.read_unread, harg6.read_unread,
    View.ld_unit_zero (S := S2048x384) hz2, View.ld_unit_zero (S := S384) hz1, View.ld_unit_zero (S := S1x1x1) hz3]

/-- The first step of a half: the block ends at the payload of the input blocks and the zero block just stored. -/
theorem out_A (c : Dev nD) (i : grid0.Coords) (arg2 : Memref sig .tc .vmem S2048x384 .f32) (harg2 : arg2.IsWhole)
    (arg3 : Memref sig .tc .vmem S2048x384 .f32) (harg3 : arg3.IsWhole) (arg4 : Memref sig .tc .vmem S2048x384 .f32) (harg4 : arg4.IsWhole)
    (arg5 : Memref sig .tc .vmem S384 .f32) (harg5 : arg5.IsWhole) (arg6 : Memref sig .tc .vmem S1x1x1 .f32) (harg6 : arg6.IsWhole)
    (hc : cond0_0 i) (x0 x1 x2 : Vec F S2048x384 .f32) (x3 : Vec F S384 .f32) :
    out0_A_4 c i arg2 harg2 arg3 harg3 arg4 harg4 arg5 harg5 arg6 harg6 hc x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread,
    View.ld_unit_zero (S := S2048x384) hz2, View.ld_unit_zero (S := S384) hz1, View.ld_unit_zero (S := S1x1x1) hz3]

end Cert.KernelIdeal.Pieces

end
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.Spec.lean ====
/-
  The triplet-margin loss with a diagonal metric, as one function of the argument arrays, over the extended reals.

  For one row of the batch, with feature weights e^{w k}, anchor a, positive p and negative n:
    rowLoss w a p n = max ( Σ_k e^{w k} · (a k − p k) · (a k − p k)
                          − Σ_k e^{w k} · (a k − n k) · (a k − n k) + margin , 0 ),
  and the result is the mean of the row losses: ( Σ_r loss r ) / 131072.

  The sum over the 131072 rows may be taken in any grouping: here, in 2 halves of 32 tiles of 2048 rows each
  (`regroup`). Only the commutative-monoid laws of + are used, so nothing is asked of the summands.
-/
import Idealize.ShloMosaic.PureOps.Ideal
import Idealize.ShloMosaic.Lib.ValueIdx
import proofs.«142536_j78091095376057_2_alg».proof.Proof.LibTileSum

noncomputable section

namespace Cert.TripletSpec

open Idealize.ShloMosaic Idealize.ShloMosaic.ValueIdx

/-- The shape of the three batches: 131072 rows of 384 features. -/
abbrev SA : Shape := ⟨2, ![131072, 384]⟩
/-- The shape of the log-weights: one per feature. -/
abbrev SW : Shape := ⟨1, ![384]⟩

/-- The margin: the f32 nearest to 0.2, the same word in both programs (it is never evaluated). -/
def margin : EReal := Ideal.ofBits .f32 0x3E4CCCCD#32

/-- The number of rows as both programs write it: the f32 word of 2^17 (never evaluated either). -/
def count : EReal := Ideal.ofBits .f32 0x48000000#32

/-- The weighted squared distance between two feature rows. -/
def wdist (w a b : Fin 384 → EReal) : EReal :=
  ∑ k : Fin 384, Ideal.exp (w k) * (a k - b k) * (a k - b k)

/-- The loss of one row from its three feature rows. -/
def rowLoss (w a p n : Fin 384 → EReal) : EReal :=
  max (wdist w a p - wdist w a n + margin) 0

/-- The loss of row `r` of the batch. -/
def loss (W : SW.Idx → EReal) (A P N : SA.Idx → EReal) (r : Fin 131072) : EReal :=
  rowLoss (fun k => W (ix1 k)) (fun k => A (ix2 r k)) (fun k => P (ix2 r k)) (fun k => N (ix2 r k))

/-- The same, indexed by a natural number (zero past the last row). -/
def lossN (W : SW.Idx → EReal) (A P N : SA.Idx → EReal) (n : ℕ) : EReal :=
  if h : n < 131072 then loss W A P N ⟨n, h⟩ else 0

/-- The sum of the losses of tile `t`: rows 2048·t … 2048·t + 2047. -/
def tileLoss (W : SW.Idx → EReal) (A P N : SA.Idx → EReal) (t : ℕ) : EReal :=
  ∑ r : Fin 2048, lossN W A P N (t * 2048 + r.val)

/-- The sum of the losses of half `c` of the batch: tiles 32·c … 32·c + 31. -/
def halfLoss (W : SW.Idx → EReal) (A P N : SA.Idx → EReal) (c : ℕ) : EReal :=
  ∑ j ∈ Finset.range 32, tileLoss W A P N (32 * c + j)

/-- The mean loss. -/
def total (W : SW.Idx → EReal) (A P N : SA.Idx → EReal) : EReal :=
  Ideal.div (∑ r : Fin 131072, loss W A P N r) count

/-- Two halves of 32 tiles of 2048 rows are all the rows, each once. -/
theorem regroup {M : Type*} [AddCommMonoid M] (f : ℕ → M) :
    ∑ c : Fin 2, ∑ j ∈ Finset.range 32, ∑ r : Fin 2048, f ((32 * c.val + j) * 2048 + r.val)
      = ∑ R : Fin 131072, f R.val := by
  have h1 : ∀ c : Fin 2, ∑ j ∈ Finset.range 32, ∑ r : Fin 2048, f ((32 * c.val + j) * 2048 + r.val)
      = ∑ j : Fin 32, (fun t => ∑ r : Fin 2048, f (t * 2048 + r.val)) (c.val * 32 + j.val) := fun c => by
    rw [Finset.sum_range]
    refine Finset.sum_congr rfl fun j _ => ?_
    rw [Nat.mul_comm 32 c.val]
  rw [Finset.sum_congr rfl fun c _ => h1 c,
    Cert.Lib.TileSum.sum_fin_mul 2 32 (fun t => ∑ r : Fin 2048, f (t * 2048 + r.val))]
  exact Cert.Lib.TileSum.sum_fin_mul 64 2048 f

/-- So the two halves' sums add up to the sum over all rows. -/
theorem halves_eq (W : SW.Idx → EReal) (A P N : SA.Idx → EReal) :
    ∑ c : Fin 2, halfLoss W A P N c.val = ∑ r : Fin 131072, loss W A P N r := by
  unfold halfLoss tileLoss
  rw [regroup (lossN W A P N)]
  refine Finset.sum_congr rfl fun R _ => ?_
  unfold lossN
  rw [dif_pos R.isLt]

end Cert.TripletSpec

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.LibColSum.lean ====
/-
  The sum down a matrix's columns read at an index, over the extended reals: a reduction by + over axis 0 of an
  [a, b] array, folded from the zero word, is at column j the sum over the rows k of the entry (k, j).
-/
import proofs.«142536_j78091095376057_2_alg».proof.Proof.LibCols

noncomputable section

namespace Cert.LibColSum

open Idealize.ShloMosaic Idealize.ShloMosaic.ValueIdx

/-- The sum down a matrix's columns: at column `j`, the sum over the column. -/
theorem colSum_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] ⟨1, ![b]⟩ X acc h hφ hacc (ix1 j) = ∑ k : Fin a, X (ix2 k j) := by
  refine (Ideal.multiReduction_add_single X acc h hφ hacc (ix1 j)).trans ?_
  exact Finset.sum_congr rfl fun k _ => congrArg X (Cert.LibCols.lift_col h j k)

end Cert.LibColSum

end
-- ==== Proof.BlockLoss.lean ====
/-
  The kernel body's arithmetic, read over the extended reals at the output block's one index.

  From the three 2048×384 input blocks a, p, n, the 384 log-weights w and the block's previous contents v, the body
  computes  v + Σ_{r < 2048} rowLoss w (a r ·) (p r ·) (n r ·):
  the weights e^{w k} are laid out as one row and spread down the 2048 rows; each row's two weighted squared distances
  are sums along the row; their difference plus the margin, clipped below at 0, is a 2048×1 column; the column's sum is
  one number, re-laid as a 1×1×1 block and added to v.
-/
import proofs.«142536_j78091095376057_2_alg».proof.Proof.Gen.KernelIdeal.Skeleton
import proofs.«142536_j78091095376057_2_alg».proof.Proof.Spec
import proofs.«142536_j78091095376057_2_alg».proof.Proof.LibRows
import proofs.«142536_j78091095376057_2_alg».proof.Proof.LibCols
import proofs.«142536_j78091095376057_2_alg».proof.Proof.LibColSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockLoss

open Idealize.ShloMosaic Idealize.ShloMosaic.ValueIdx
open Cert.KernelIdeal Cert.KernelIdeal.Gen Cert.TripletSpec

/-- The block's one index. -/
abbrev o : S1x1x1.Idx := ix3 (0 : Fin 1) (0 : Fin 1) (0 : Fin 1)

/-- Every index of a 1×1×1 block is that one. -/
theorem idx_eq_o (y : S1x1x1.Idx) : y = o := by
  have b0 : (y 0).val < 1 := (y 0).isLt
  have b1 : (y 1).val < 1 := (y 1).isLt
  have b2 : (y 2).val < 1 := (y 2).isLt
  funext a; apply Fin.ext
  match a with
  | ⟨0, _⟩ => show (y 0).val = 0; omega
  | ⟨1, _⟩ => show (y 1).val = 0; omega
  | ⟨2, _⟩ => show (y 2).val = 0; omega

/-- One row's weighted squared distance: weights spread down the rows, times the difference twice, summed along the row. -/
theorem lane_sum (e : FVec Ideal S384 .f32) (d : FVec Ideal S2048x384 .f32) (r : Fin 2048) :
    multiReduction .add [1] S2048
        (mulf (mulf (broadcastTo S2048x384 (shapeCast S1x384 e Gen.shapeCasts_S384_S1x384) Gen.broadcasts_S1x384_S2048x384) d) d)
        0x00000000#32 Gen.reduces_S2048x384_S2048 (.inl rfl) rfl (ix1 r)
      = ∑ k : Fin 384, e (ix1 k) * d (ix2 r k) * d (ix2 r k) := by
  refine (Cert.LibRows.rowSum_apply _ _ Gen.reduces_S2048x384_S2048 (.inl rfl) rfl r).trans ?_
  refine Finset.sum_congr rfl fun k _ => ?_
  rw [mulf_apply, mulf_apply, Cert.LibCols.row_spread_apply]

/-- The clipped column at row `r`: the two row sums' difference plus the margin, clipped below at the zero word. -/
theorem column_at (u v : FVec Ideal S2048 .f32) (c1 c0 : Ideal .f32) (r : Fin 2048) :
    maximumf (addf (subf (shapeCast S2048x1 u Gen.shapeCasts_S2048_S2048x1) (shapeCast S2048x1 v Gen.shapeCasts_S2048_S2048x1))
        (broadcast S2048x1 c1)) (broadcast S2048x1 c0) (ix2 r (0 : Fin 1))
      = max (u (ix1 r) - v (ix1 r) + c1) c0 := by
  rw [maximumf_apply, addf_apply, subf_apply, broadcast_apply, broadcast_apply,
    Cert.LibRows.shapeCast_a_a1_apply, Cert.LibRows.shapeCast_a_a1_apply]

/-- The payload at the block's index. -/
theorem pay2_apply (x0 x1 x2 : FVec Ideal S2048x384 .f32) (x3 : FVec Ideal S384 .f32) (v : FVec Ideal S1x1x1 .f32) :
    k0_pay2 (F := Ideal) x0 x1 x2 x3 v o
      = v o + ∑ r : Fin 2048, rowLoss (fun k => x3 (ix1 k)) (fun k => x0 (ix2 r k)) (fun k => x1 (ix2 r k)) (fun k => x2 (ix2 r k)) := by
  unfold k0_pay2
  dsimp only
  refine (addf_apply _ _ _).trans ?_
  rw [shapeCast_self]
  refine congrArg (v o + ·) ?_
  refine (shapeCast_ab_1ab_apply _ _ 0 0 0).trans ?_
  refine (shapeCast_a_1a_apply _ _ 0 0).trans ?_
  refine (Cert.LibColSum.colSum_apply _ _ Gen.reduces_S2048x1_S1 (.inl rfl) rfl 0).trans ?_
  refine Finset.sum_congr rfl fun r _ => ?_
  refine (column_at _ _ _ _ r).trans ?_
  rw [lane_sum, lane_sum]
  unfold rowLoss wdist margin
  rw [show (FloatOps.ofBits (F := Ideal) .f32 0x00000000#32 : EReal) = 0 from Ideal.ofBits_zero_f32]
  rfl

end Cert.KernelIdeal.BlockLoss

end
-- ==== Proof.Accumulate.lean ====
/-
  What the kernel's output array holds after the run, over the extended reals.

  The grid has 64 points, 2 halves of 32 steps. At point t the three batch windows hold tile t (rows 2048·t … 2048·t + 2047)
  and the weight window the whole weight vector, so the body adds tile t's sum of row losses to the output block
  (BlockLoss). The block is set to zero at the first step of each half, so after point 32·c + k it holds the sum of
  tiles 32·c … 32·c + k (the running sum's closed form); it is written back after the last step of a half, to entry
  (c, 0, 0) of the 2×1×1 output array. The two write-backs cover the array, which therefore ends at
  (c, 0, 0) ↦ the sum of the losses of half c of the batch.
-/
import proofs.«142536_j78091095376057_2_alg».proof.Proof.Gen.KernelIdeal.Frame
import proofs.«142536_j78091095376057_2_alg».proof.Proof.Pieces
import proofs.«142536_j78091095376057_2_alg».proof.Proof.BlockLoss
import proofs.«142536_j78091095376057_2_alg».proof.Proof.Spec
import proofs.«142536_j78091095376057_2_alg».proof.Proof.LibTileSum
import Idealize.ShloMosaic.Lib.Pipeline.Value

noncomputable section

namespace Cert.KernelIdeal.Accumulate

open Idealize.ShloMosaic Idealize.ShloMosaic.TcCoe Idealize.SL.Sem Idealize.ShloMosaic.ValueIdx
open Idealize.ShloMosaic.Pipeline (Dat)
open Cert.KernelIdeal Cert.KernelIdeal.Gen Cert.TripletSpec Cert.KernelIdeal.BlockLoss

variable (m : (ℓ : Loc nD τ sig) → Buf (Elt Ideal) ℓ) (ρ : Dev nD → PrngReg)

/-- The argument arrays on core `c`. -/
abbrev argA (c : Dev nD) : SA.Idx → EReal := m ((c.tc : Thread nD τ).loc main_arg0)
abbrev argP (c : Dev nD) : SA.Idx → EReal := m ((c.tc : Thread nD τ).loc main_arg1)
abbrev argN (c : Dev nD) : SA.Idx → EReal := m ((c.tc : Thread nD τ).loc main_arg2)
abbrev argW (c : Dev nD) : SW.Idx → EReal := m ((c.tc : Thread nD τ).loc main_arg3)

/-! ## Where the windows sit at each point -/

/-- The batch windows' block at point `t` is tile `t`; the weight window never moves; the output block is half ⌊t/32⌋. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 3) = t.val / 32 ∧ win0_4.index t (1 : Fin 3) = 0 ∧ win0_4.index t (2 : Fin 3) = 0 :=
  (by decide +kernel : ∀ t : Fin grid0.N, _)

theorem N_eq : cfg0.N = 64 := N_0

/-- The anchor window at point `t`, row `r`, feature `k`: the anchor array at row 2048·t + r. -/
theorem blk0_apply (c : Dev nD) (t : Fin cfg0.N) (r : Fin 2048) (k : Fin 384) (h : t.val * 2048 + r.val < 131072) :
    (iblk m c 0 t : FVec Ideal S2048x384 .f32) (ix2 r k) = argA m c (ix2 ⟨t.val * 2048 + r.val, h⟩ k) := by
  obtain ⟨e0, e1, -⟩ := idx_facts t
  unfold iblk
  rw [View.read_apply]
  show V m c main_arg0 _ = m ((c.tc : Thread nD τ).loc main_arg0) _
  rw [V_main_arg0]
  congr 1
  funext a; apply Fin.ext
  match a with
  | ⟨0, _⟩ => show win0_0.index t (0 : Fin 2) * 2048 + 1 * r.val = t.val * 2048 + r.val; rw [e0]; omega
  | ⟨1, _⟩ => show win0_0.index t (1 : Fin 2) * 384 + 1 * k.val = k.val; rw [e1]; omega

/-- The positive window likewise. -/
theorem blk1_apply (c : Dev nD) (t : Fin cfg0.N) (r : Fin 2048) (k : Fin 384) (h : t.val * 2048 + r.val < 131072) :
    (iblk m c 1 t : FVec Ideal S2048x384 .f32) (ix2 r k) = argP m c (ix2 ⟨t.val * 2048 + r.val, h⟩ k) := by
  obtain ⟨-, -, e0, e1, -⟩ := idx_facts t
  unfold iblk
  rw [View.read_apply]
  show V m c main_arg1 _ = m ((c.tc : Thread nD τ).loc main_arg1) _
  rw [V_main_arg1]
  congr 1
  funext a; apply Fin.ext
  match a with
  | ⟨0, _⟩ => show win0_1.index t (0 : Fin 2) * 2048 + 1 * r.val = t.val * 2048 + r.val; rw [e0]; omega
  | ⟨1, _⟩ => show win0_1.index t (1 : Fin 2) * 384 + 1 * k.val = k.val; rw [e1]; omega

/-- The negative window likewise. -/
theorem blk2_apply (c : Dev nD) (t : Fin cfg0.N) (r : Fin 2048) (k : Fin 384) (h : t.val * 2048 + r.val < 131072) :
    (iblk m c 2 t : FVec Ideal S2048x384 .f32) (ix2 r k) = argN m c (ix2 ⟨t.val * 2048 + r.val, h⟩ k) := by
  obtain ⟨-, -, -, -, e0, e1, -⟩ := idx_facts t
  unfold iblk
  rw [View.read_apply]
  show V m c main_arg2 _ = m ((c.tc : Thread nD τ).loc main_arg2) _
  rw [V_main_arg2]
  congr 1
  funext a; apply Fin.ext
  match a with
  | ⟨0, _⟩ => show win0_2.index t (0 : Fin 2) * 2048 + 1 * r.val = t.val * 2048 + r.val; rw [e0]; omega
  | ⟨1, _⟩ => show win0_2.index t (1 : Fin 2) * 384 + 1 * k.val = k.val; rw [e1]; omega

/-- The weight window at any point: the whole weight vector. -/
theorem blk3_apply (c : Dev nD) (t : Fin cfg0.N) (k : Fin 384) :
    (iblk m c 3 t : FVec Ideal S384 .f32) (ix1 k) = argW m c (ix1 k) := by
  obtain ⟨-, -, -, -, -, -, e0, -⟩ := idx_facts t
  unfold iblk
  rw [View.read_apply]
  show V m c main_arg3 _ = m ((c.tc : Thread nD τ).loc main_arg3) _
  rw [V_main_arg3]
  congr 1
  funext a; apply Fin.ext
  match a with
  | ⟨0, _⟩ => show win0_3.index t (0 : Fin 1) * 384 + 1 * k.val = k.val; rw [e0]; omega

/-! ## One point adds one tile -/

/-- The tile sum the body forms from the windows at point `t` is tile `t`'s sum of row losses. -/
theorem tile_eq (c : Dev nD) (t : Fin cfg0.N) :
    ∑ r : Fin 2048, rowLoss (fun k => (iblk m c 3 t : FVec Ideal S384 .f32) (ix1 k))
        (fun k => (iblk m c 0 t : FVec Ideal S2048x384 .f32) (ix2 r k))
        (fun k => (iblk m c 1 t : FVec Ideal S2048x384 .f32) (ix2 r k))
        (fun k => (iblk m c 2 t : FVec Ideal S2048x384 .f32) (ix2 r k))
      = tileLoss (argW m c) (argA m c) (argP m c) (argN m c) t.val := by
  have hN : t.val < 64 := lt_of_lt_of_eq t.isLt (N_eq)
  unfold tileLoss
  refine Finset.sum_congr rfl fun r _ => ?_
  have hr : r.val < 2048 := r.isLt
  have h : t.val * 2048 + r.val < 131072 := by omega
  unfold lossN
  rw [dif_pos h]
  unfold loss
  rw [funext fun k => blk3_apply m c t k, funext fun k => blk0_apply m c t r k h,
    funext fun k => blk1_apply m c t r k h, funext fun k => blk2_apply m c t r k h]

/-- The zero block the first step of a half stores holds the number 0. -/
theorem pay1_apply : k0_pay1 (F := Ideal) o = 0 := by
  unfold k0_pay1
  rw [broadcast_apply]
  exact Ideal.ofBits_zero_f32

/-- At the first step of a half the block ends at 0 + the tile's sum. -/
theorem outsAt_first (c : Dev nD) (t : Fin cfg0.N) (h0 : t.val % 32 = 0) :
    outsAt0 m c t.val t.isLt o = 0 + tileLoss (argW m c) (argA m c) (argP m c) (argN m c) t.val := by
  rw [outsAt0_A m c t h0,
    Cert.KernelIdeal.Pieces.out_A c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t) (iblk m c 3 t)]
  refine (pay2_apply (iblk m c 0 t) (iblk m c 1 t) (iblk m c 2 t) (iblk m c 3 t) (k0_pay1 (F := Ideal))).trans ?_
  rw [pay1_apply, tile_eq]

/-- At any other step it ends at what the step before left + the tile's sum. -/
theorem outsAt_next (c : Dev nD) (t : Fin cfg0.N) (h0 : ¬t.val % 32 = 0) :
    outsAt0 m c t.val t.isLt o
      = outsAt0 m c (t.val - 1) (Nat.lt_of_le_of_lt (Nat.sub_le _ _) t.isLt) o
        + tileLoss (argW m c) (argA m c) (argP m c) (argN m c) t.val := by
  rw [outsAt0_B m c t h0,
    Cert.KernelIdeal.Pieces.out_B c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t) (iblk m c 3 t)
      (outsAt0 m c (t.val - 1) (Nat.lt_of_le_of_lt (Nat.sub_le _ _) t.isLt))]
  refine (pay2_apply (iblk m c 0 t) (iblk m c 1 t) (iblk m c 2 t) (iblk m c 3 t) _).trans ?_
  rw [tile_eq]

/-! ## The running sum -/

/-- The running sum, restarted from zero every 32nd step. -/
def acc (c : Dev nD) : ℕ → EReal
  | 0 => 0 + tileLoss (argW m c) (argA m c) (argP m c) (argN m c) 0
  | n + 1 => if (n + 1) % 32 = 0 then 0 + tileLoss (argW m c) (argA m c) (argP m c) (argN m c) (n + 1)
      else acc c n + tileLoss (argW m c) (argA m c) (argP m c) (argN m c) (n + 1)

/-- The output block after point `n` holds the running sum: by induction on the point. -/
theorem outsAt_eq (c : Dev nD) : ∀ (n : ℕ) (h : n < cfg0.N), outsAt0 m c n h o = acc m c n
  | 0, h => outsAt_first m c ⟨0, h⟩ rfl
  | n + 1, h => by
    by_cases h0 : (n + 1) % 32 = 0
    · rw [outsAt_first m c ⟨n + 1, h⟩ h0]
      show _ = if (n + 1) % 32 = 0 then _ else _
      rw [if_pos h0]
    · rw [outsAt_next m c ⟨n + 1, h⟩ h0]
      show _ = if (n + 1) % 32 = 0 then _ else _
      rw [if_neg h0]
      show outsAt0 m c n _ o + _ = _
      rw [outsAt_eq c n]

/-- After step k of half p the running sum is the sum of the half's tiles so far. -/
theorem acc_at (c : Dev nD) (p k : ℕ) (hk : k < 32) :
    acc m c (32 * p + k) = ∑ j ∈ Finset.range (k + 1), tileLoss (argW m c) (argA m c) (argP m c) (argN m c) (32 * p + j) :=
  Cert.Lib.TileSum.acc_closed 32 (by norm_num) (tileLoss (argW m c) (argA m c) (argP m c) (argN m c)) (acc m c) rfl
    (fun n => rfl) p k hk

/-! ## The output array after the run -/

/-- The output array: entry (c', 0, 0) is the sum of the losses of half c' of the batch. -/
def halves (c : Dev nD) : S2x1x1.Idx → EReal := fun j => halfLoss (argW m c) (argA m c) (argP m c) (argN m c) (j 0).val

/-- What is written back after the last step of a half is that half's entry. -/
theorem flushed_eq (c : Dev nD) (t : Fin cfg0.N) (hf : (cfg0.win 4).flush t = true) :
    (dats m 0 c).flushed 4 t = ((cfg0.win 4).blk t).view.read (Elt Ideal) (halves m c) := by
  have h31 : t.val % 32 = 31 := (flush0_4 t).mp hf
  have hN : t.val < 64 := lt_of_lt_of_eq t.isLt N_eq
  obtain ⟨-, -, -, -, -, -, -, e0, -, -⟩ := idx_facts t
  show (cfg0.win 4).cut (grid0.coords t) ((dats m 0 c).after 4 t) = _
  rw [after0_4]
  funext y
  rw [View.read_apply]
  obtain rfl : y = o := idx_eq_o y
  show outsAt0 m c t.val t.isLt o = halves m c (((cfg0.win 4).blk t).view.emb o)
  have hemb : ((((cfg0.win 4).blk t).view.emb o) 0).val = t.val / 32 := by
    show win0_4.index t (0 : Fin 3) * 1 + 1 * 0 = t.val / 32
    rw [e0]; omega
  unfold halves halfLoss
  rw [hemb, outsAt_eq m c t.val t.isLt]
  have ht : t.val = 32 * (t.val / 32) + 31 := by omega
  rw [ht, acc_at m c (t.val / 32) 31 (by norm_num)]
  have hq : (32 * (t.val / 32) + 31) / 32 = t.val / 32 := by omega
  rw [hq]

/-- An index of the output array is in point `t`'s block iff each coordinate is in the block's range. -/
theorem mem_blk (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v0).slice (win0_4.rect t)).set ↔ _
  rw [View.set_slice_whole, Rect.mem_set_unit]
  exact Iff.rfl

/-- The two write-backs (after points 31 and 63) cover the output array. -/
theorem cover (i : S2x1x1.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hlt : 32 * (i 0).val + 31 < cfg0.N := by rw [N_eq]; omega
  refine ⟨⟨32 * (i 0).val + 31, hlt⟩, (flush0_4 _).mpr (by show (32 * (i 0).val + 31) % 32 = 31; omega), ?_⟩
  rw [mem_blk]
  obtain ⟨-, -, -, -, -, -, -, e0, e1, e2⟩ := idx_facts ⟨32 * (i 0).val + 31, hlt⟩
  have e0' : win0_4.index ⟨32 * (i 0).val + 31, hlt⟩ (0 : Fin 3) = (i 0).val := by rw [e0]; show (32 * (i 0).val + 31) / 32 = _; omega
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 1 ≤ (i 2).val ∧ (i 2).val < win0_4.index _ (2 : Fin 3) * 1 + 1; rw [e2]; omega

/-- So the output array ends holding the two halves' sums. -/
theorem final (c : Dev nD) : (dats m 0 c).arrAt 4 cfg0.N = halves m c :=
  (dats m 0 c).arrAt_eq_of_cover 4 (halves m c) (flushed_eq m c) (cover)

end Cert.KernelIdeal.Accumulate

end
-- ==== Proof.LibIdxSum.lean ====
/-
  Sums over the index type of a small array as sums over its one free coordinate: the indices of an [n] vector, and of
  an [n, 1, 1] array, are in bijection with Fin n, so a sum over them is the sum over Fin n (any commutative monoid).
-/
import Idealize.ShloMosaic.Lib.ValueIdx

noncomputable section

namespace Cert.LibIdxSum

open Idealize.ShloMosaic Idealize.ShloMosaic.ValueIdx

/-- The indices of an [n] vector are the numbers below n. -/
def idxEquiv1 {n : Nat} : (⟨1, ![n]⟩ : Shape).Idx ≃ Fin n where
  toFun i := i 0
  invFun a := ix1 a
  left_inv i := (eq_ix1 i).symm
  right_inv _ := rfl

/-- So a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An index of an [n, 1, 1] array is its first coordinate followed by two zeros. -/
theorem eq_ix3_unit {n : Nat} (i : (⟨3, ![n, 1, 1]⟩ : Shape).Idx) : i = ix3 (i 0) (0 : Fin 1) (0 : Fin 1) := by
  have b1 : (i 1).val < 1 := (i 1).isLt
  have b2 : (i 2).val < 1 := (i 2).isLt
  funext d; apply Fin.ext
  match d with
  | ⟨0, _⟩ => rfl
  | ⟨1, _⟩ => show (i 1).val = 0; omega
  | ⟨2, _⟩ => show (i 2).val = 0; omega

/-- The indices of an [n, 1, 1] array are the numbers below n. -/
def idxEquiv3u {n : Nat} : (⟨3, ![n, 1, 1]⟩ : Shape).Idx ≃ Fin n where
  toFun i := i 0
  invFun a := ix3 a (0 : Fin 1) (0 : Fin 1)
  left_inv i := (eq_ix3_unit i).symm
  right_inv _ := rfl

/-- So a sum over them is the sum over the first coordinate. -/
theorem sum_idx3u {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv3u (n := n)).symm f]
  rfl

end Cert.LibIdxSum

end
-- ==== Proof.KernelResult.lean ====
/-
  The kernel program's result, over the extended reals, is the mean of the row losses.

  After the region the output array holds the two halves' sums of row losses (Accumulate). The host lines that follow
  add the array's two entries from the zero word and divide by the row count; the two halves together are all the rows
  (the regrouping law of the specification), so the result is the mean loss of the argument arrays.
-/
import proofs.«142536_j78091095376057_2_alg».proof.Proof.Gen.KernelIdeal.Frame
import proofs.«142536_j78091095376057_2_alg».proof.Proof.Accumulate
import proofs.«142536_j78091095376057_2_alg».proof.Proof.Spec
import proofs.«142536_j78091095376057_2_alg».proof.Proof.LibIdxSum
import Idealize.ShloMosaic.Lib.Pipeline.Value
import Idealize.ShloMosaic.Lib.StableHlo.Run
import Idealize.ShloMosaic.PureOps.Ideal.Laws

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.TripletSpec Cert.KernelIdeal.Accumulate

variable (m : (ℓ : Loc nD τ sig) → Buf (Elt Ideal) ℓ) (ρ : Dev nD → PrngReg)

/-- The kernel's result on core `c`: the mean loss of its argument arrays. -/
def result (c : Dev nD) : Buf (Elt Ideal) ((c.tc : Thread nD τ).loc main_v2) :=
  fun _ => total (argW m c) (argA m c) (argP m c) (argN m c)

/-- The two entries' sum from the zero word, divided by the count, is the mean loss. -/
theorem mean_of_halves (c : Dev nD) (i : S_.Idx) :
    Host.divf (F := Ideal) (Host.reduceAdd (F := Ideal) (halves m c) (constant (F := Ideal) S_ .f32 0x00000000#32) Gen.reducesTo_S2x1x1_S_d0_1_2 Gen.h_S_)
        (constant (F := Ideal) S_ .f32 0x48000000#32) i
      = total (argW m c) (argA m c) (argP m c) (argN m c) := by
  show Ideal.div (Ideal.hostReduceAdd Gen.reducesTo_S2x1x1_S_d0_1_2 (halves m c) _ i) _ = _
  rw [Ideal.hostReduceAdd_total Gen.reducesTo_S2x1x1_S_d0_1_2 (fun b => b.elim0) (halves m c) _ i,
    Cert.LibIdxSum.sum_idx3u]
  unfold total Cert.TripletSpec.count
  have hh : ∀ a : Fin 2, halves m c (ix3 a (0 : Fin 1) (0 : Fin 1)) = halfLoss (argW m c) (argA m c) (argP m c) (argN m c) a.val :=
    fun _ => rfl
  rw [Finset.sum_congr rfl fun a _ => hh a, halves_eq, constant_apply, constant_apply, Ideal.ofBits_zero_f32, zero_add]

/-- The host lines after the region leave the mean loss in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = halves m c :=
    (Pipeline.withArrays_arr spec0 launch0.win.arr_inj c (V0 m c) (fun w => (dats m 0 c).arrAt w cfg0.N) 4).trans (final m c)
  rw [e]
  funext i
  exact mean_of_halves m c i

/-- The result buffer is unscoped and is none of the five windows' arrays. -/
theorem v2_rest : main_v2 ∈ Pipeline.restRefs sig (cfgs 0).spec :=
  Pipeline.mem_restRefs_of main_v2 rfl (by decide)

/-- The kernel program's run, read: every weakly fair execution terminates with the result buffer at the mean loss of
    the argument arrays, and the argument arrays unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.Reference.lean ====
/-
  The reference program's result, over the extended reals, is the mean of the row losses.

  Read one operation at a time: the weights e^{W} are laid out as one row and spread down all 131072 rows; each row's two
  weighted squared distances are host sums along the row (from the zero word); their difference plus the margin, clipped
  below at the zero word, is the row's loss; the host sum of all losses (from the zero word) is divided by the row count.
-/
import proofs.«142536_j78091095376057_2_alg».proof.Proof.Gen.ReferenceIdeal.Read
import proofs.«142536_j78091095376057_2_alg».proof.Proof.Spec
import proofs.«142536_j78091095376057_2_alg».proof.Proof.LibIdxSum
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Read Cert.TripletSpec

/-- The entry of row `a` that a row sum reads at position `k` is (a, k). -/
theorem idx7 (a : Fin 131072) (k : Fin 384) : idx_main_v7 (ix1 a) k = ix2 a k :=
  funext fun d => Fin.ext (by match d with | ⟨0, _⟩ => rfl | ⟨1, _⟩ => rfl)
theorem idx12 (a : Fin 131072) (k : Fin 384) : idx_main_v12 (ix1 a) k = ix2 a k :=
  funext fun d => Fin.ext (by match d with | ⟨0, _⟩ => rfl | ⟨1, _⟩ => rfl)
/-- The spread weights at (a, k) read the weight row at (0, k), which reads the weight vector at k. -/
theorem idx4 (a : Fin 131072) (k : Fin 384) : idx_main_v4 (ix2 a k) = ix2 (0 : Fin 1) k :=
  funext fun d => Fin.ext (by match d with | ⟨0, _⟩ => rfl | ⟨1, _⟩ => rfl)
theorem idx9 (a : Fin 131072) (k : Fin 384) : idx_main_v9 (ix2 a k) = ix2 (0 : Fin 1) k :=
  funext fun d => Fin.ext (by match d with | ⟨0, _⟩ => rfl | ⟨1, _⟩ => rfl)
theorem idx3 (k : Fin 384) : idx_main_v3 (ix2 (0 : Fin 1) k) = ix1 k :=
  funext fun d => Fin.ext (by match d with | ⟨0, _⟩ => rfl)
theorem idx8 (k : Fin 384) : idx_main_v8 (ix2 (0 : Fin 1) k) = ix1 k :=
  funext fun d => Fin.ext (by match d with | ⟨0, _⟩ => rfl)

/-- The clipped value of row `a` is the row's loss. -/
theorem row_eq (x0 x1 x2 : FVec Ideal S131072x384 .f32) (x3 : FVec Ideal S384 .f32) (a : Fin 131072) :
    val_main_v16 (F := Ideal) x0 x1 x2 x3 (ix1 a) = loss x3 x0 x1 x2 a := by
  rw [val_main_v16_apply, val_main_v15_apply, val_main_v13_apply, val_main_v14_apply, val_main_cst_1_apply,
    val_main_call0_v0_apply, val_main_call0_cst_apply, val_main_v7_apply, val_main_v12_apply, val_main_cst_apply,
    val_main_cst_0_apply]
  simp only [idx7, idx12, val_main_v6_apply, val_main_v5_apply, val_main_v11_apply, val_main_v10_apply, val_main_v4_apply,
    val_main_v9_apply, idx4, idx9, val_main_v3_apply, val_main_v8_apply, idx3, idx8, val_main_v0_apply, val_main_v1_apply,
    val_main_v2_apply]
  unfold loss rowLoss wdist margin
  rw [show (FloatOps.ofBits (F := Ideal) .f32 0x00000000#32 : EReal) = 0 from Ideal.ofBits_zero_f32]
  simp only [zero_add]
  rfl

/-- The reference's result is the mean loss. -/
theorem result_eq (x0 x1 x2 : FVec Ideal S131072x384 .f32) (x3 : FVec Ideal S384 .f32) :
    val_main_v18 (F := Ideal) x0 x1 x2 x3 = fun _ => total x3 x0 x1 x2 := by
  funext i
  rw [val_main_v18_apply, val_main_v17_apply, val_main_cst_3_apply, val_main_cst_2_apply, Cert.LibIdxSum.sum_idx1]
  rw [Finset.sum_congr rfl fun a _ => row_eq x0 x1 x2 x3 a]
  unfold total Cert.TripletSpec.count
  rw [show (FloatOps.ofBits (F := Ideal) .f32 0x00000000#32 : EReal) = 0 from Ideal.ofBits_zero_f32, zero_add]
  rfl

end Cert.ReferenceIdeal.RefValue

end
-- ==== Proof.lean ====
/-
  A triplet-margin loss with a diagonal metric: for anchors a, positives p and negatives n (131072 rows of 384 features)
  and log-weights W,
      loss r = max ( Σ_k e^{W k}·(a r k − p r k)·(a r k − p r k) − Σ_k e^{W k}·(a r k − n r k)·(a r k − n r k) + margin , 0 ),
  and the result is the mean ( Σ_r loss r ) / 131072.

  The reference computes exactly this: the weighted squares over the whole arrays, two sums along each row, the clipped
  difference, one sum over all rows, one division. The kernel streams the batch in 64 tiles of 2048 rows, in 2 halves of
  32 tiles: each grid step adds its tile's sum of row losses to a 1×1×1 accumulator that is reset at the first step of a
  half and written to entry (half, 0, 0) of a 2×1×1 array after the last; the host then adds the two entries and divides
  by the same count. Over the extended reals every operation is exact, so the two programs differ only in how the sum
  over the rows is grouped — 2 × 32 × 2048 against 131072 at once — and in harmless additions of zero; addition of
  extended reals is commutative and associative, so the results are equal for ALL inputs (the finiteness of the inputs
  is never used). The margin and the count are the same float words in both programs and are never evaluated.

  The modules: Spec (the loss as one function; the regrouping law), Pieces and BlockLoss (what one grid step leaves in the
  accumulator), Accumulate (the running sum, the write-backs, the final 2×1×1 array), KernelResult (the host lines after
  the region; the kernel program's run), Reference (the reference's stages read at an index). The three frames are the
  generated ones; the idealization rewrote nothing.
-/
import proofs.«142536_j78091095376057_2_alg».proof.Defs
import proofs.«142536_j78091095376057_2_alg».proof.Proof.Gen.Kernel
import proofs.«142536_j78091095376057_2_alg».proof.Proof.Gen.Kernel.Frame
import proofs.«142536_j78091095376057_2_alg».proof.Proof.Gen.KernelIdeal
import proofs.«142536_j78091095376057_2_alg».proof.Proof.Gen.KernelIdeal.Frame
import proofs.«142536_j78091095376057_2_alg».proof.Proof.Gen.ReferenceIdeal
import proofs.«142536_j78091095376057_2_alg».proof.Proof.Gen.Pre_finite_inputs
import proofs.«142536_j78091095376057_2_alg».proof.Proof.Gen.ReferenceIdeal.Run
import proofs.«142536_j78091095376057_2_alg».proof.Proof.Gen.ReferenceIdeal.Read
import proofs.«142536_j78091095376057_2_alg».proof.Proof.KernelResult
import proofs.«142536_j78091095376057_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel program's result buffer and the reference's both end
    at the mean loss of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
